-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S800000x2 : Shape := ⟨2, ![800000, 2]⟩
abbrev S128x128 : Shape := ⟨2, ![128, 128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S2x50000x128 .f32) (main_arg1 : IVec S800000x2 32) (main_arg2 : FVec F S2x50000x128 .f32) (main_arg3 : FVec F S2x50000x128 .f32) (main_arg4 : FVec F S128x128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S2x50000x128 .f32 := Host.absf main_arg2
  let main_cst_0 : FVec F S_ .f32 := constant S_ .f32 0x7F800000#32
  let main_v5 : FVec F S2x50000x128 .f32 := broadcastInDim S2x50000x128 ![] bcast_S_S2x50000x128 main_cst_0
  let main_v6 : IVec S2x50000x128 1 := cmpf .olt main_v4 main_v5
  let main_c_1 : IVec S_ 1 := constantI S_ 1 1#1
  let main_v7 : IVec S_ 1 := (fun x v => Host.reduce IntOp.andi x v reducesTo_S2x50000x128_S_d0_1_2 h_S_) main_v6 main_c_1
  let main_v8 : IVec S_ 1 := andi main_v3 main_v7
  let main_v9 : FVec F S2x50000x128 .f32 := Host.absf main_arg3
  let main_cst_2 : FVec F S_ .f32 := constant S_ .f32 0x7F800000#32
  let main_v10 : FVec F S2x50000x128 .f32 := broadcastInDim S2x50000x128 ![] bcast_S_S2x50000x128 main_cst_2
  let main_v11 : IVec S2x50000x128 1 := cmpf .olt main_v9 main_v10
  let main_c_3 : IVec S_ 1 := constantI S_ 1 1#1
  let main_v12 : IVec S_ 1 := (fun x v => Host.reduce IntOp.andi x v reducesTo_S2x50000x128_S_d0_1_2 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S2x50000x128 : Shape := ⟨3, ![2, 50000, 128]⟩
abbrev S800000x2 : Shape := ⟨2, ![800000, 2]⟩
abbrev S128x128 : Shape := ⟨2, ![128, 128]⟩
abbrev S800000x1 : Shape := ⟨2, ![800000, 1]⟩
abbrev S800000 : Shape := ⟨1, ![800000]⟩
abbrev S_ : Shape := ⟨0, ![]⟩
abbrev S2x800000x128 : Shape := ⟨3, ![2, 800000, 128]⟩
abbrev S50000x128 : Shape := ⟨2, ![50000, 128]⟩
abbrev S100000x128 : Shape := ⟨2, ![100000, 128]⟩
abbrev S5000x128 : Shape := ⟨2, ![5000, 128]⟩

abbrev nBuf : Space → Nat
  | .hbm => 43
  | .vmem => 9
  | .smem => 0
  | _ => 0

abbrev bufTy : (tb : Table) → Fin (tcTables nBuf tb) → BufTy
  | .hbm, ⟨0, _⟩ => ⟨S2x50000x128, .f32⟩
  | .hbm, ⟨1, _⟩ => ⟨S800000x2, .i32⟩
  | .hbm, ⟨2, _⟩ => ⟨S2x50000x128, .f32⟩
  | .hbm, ⟨3, _⟩ => ⟨S2x50000x128, .f32⟩
  | .hbm, ⟨4, _⟩ => ⟨S128x128, .f32⟩
  | .hbm, ⟨5, _⟩ => ⟨S800000x1, .i32⟩
  | .hbm, ⟨6, _⟩ => ⟨S800000, .i32⟩
  | .hbm, ⟨7, _⟩ => ⟨S800000x1, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S2x800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S2x50000x128, .f32⟩
  | .hbm, ⟨22, _⟩ => ⟨S2x50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S2x800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S2x50000x128, .f32⟩
  | .hbm, ⟨36, _⟩ => ⟨S2x50000x128, .f32⟩
  | .hbm, ⟨37, _⟩ => ⟨S2x50000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S2x50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000x128_S2x50000x128_1_2 : S50000x128.BroadcastsInDim S2x50000x128 (![1, 2] : Fin 2 → Fin S2x50000x128.rank)
  shapeCasts_S2x50000x128_S100000x128 : S2x50000x128.ShapeCasts S100000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S100000x128_S2x50000x128 : S100000x128.ShapeCasts S2x50000x128
  gather_S2x50000x128_S800000x1_S2x800000x128_02_1_n_n_1_1_21128_wf : GatherDims.WF S2x50000x128 S800000x1 S2x800000x128 [0, 2] [1] [] [1] [] 1 ![2, 1, 128]
  scatter_S2x50000x128_S800000x1_S2x800000x128_02_1_1_1_wf : ScatterDims.WF S2x50000x128 S800000x1 S2x800000x128 [0, 2] [1] [1] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S2x50000x128_S800000x1_S2x800000x128_02_1_n_n_1_1_21128 : GatherDims S2x50000x128 S800000x1 S2x800000x128 where
  offsetDims := [0, 2]
  collapsedSliceDims := [1]
  operandBatchingDims := []
  startIndicesBatchingDims := []
  startIndexMap := [1]
  indexVectorDim := 1
  sliceSizes := ![2, 1, 128]
  wf := gather_S2x50000x128_S800000x1_S2x800000x128_02_1_n_n_1_1_21128_wf
def scatter_S2x50000x128_S800000x1_S2x800000x128_02_1_1_1 : ScatterDims S2x50000x128 S800000x1 S2x800000x128 where
  updateWindowDims := [0, 2]
  insertedWindowDims := [1]
  scatterDimsToOperandDims := [1]
  indexVectorDim := 1
  wf := scatter_S2x50000x128_S800000x1_S2x800000x128_02_1_1_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x50000x128 : Shape := ⟨3, ![2, 50000, 128]⟩
abbrev S800000x2 : Shape := ⟨2, ![800000, 2]⟩
abbrev S128x128 : Shape := ⟨2, ![128, 128]⟩
abbrev S800000x1 : Shape := ⟨2, ![800000, 1]⟩
abbrev S800000 : Shape := ⟨1, ![800000]⟩
abbrev S_ : Shape := ⟨0, ![]⟩
abbrev S2x800000x128 : Shape := ⟨3, ![2, 800000, 128]⟩
abbrev S50000x128 : Shape := ⟨2, ![50000, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S800000x2, .i32⟩
  | .hbm, ⟨2, _⟩ => ⟨S2x50000x128, .f32⟩
  | .hbm, ⟨3, _⟩ => ⟨S2x50000x128, .f32⟩
  | .hbm, ⟨4, _⟩ => ⟨S128x128, .f32⟩
  | .hbm, ⟨5, _⟩ => ⟨S800000x1, .i32⟩
  | .hbm, ⟨6, _⟩ => ⟨S800000, .i32⟩
  | .hbm, ⟨7, _⟩ => ⟨S800000x1, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S2x800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S2x50000x128, .f32⟩
  | .hbm, ⟨22, _⟩ => ⟨S2x50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S2x800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S2x50000x128, .f32⟩
  | .hbm, ⟨36, _⟩ => ⟨S2x50000x128, .f32⟩
  | .hbm, ⟨37, _⟩ => ⟨S2x50000x128, .f32⟩
  | .hbm, ⟨38, _⟩ => ⟨S2x50000x128, .f32⟩
  | .hbm, ⟨39, _⟩ => ⟨S2x50000x128, .f32⟩
  | .hbm, ⟨40, _⟩ => ⟨S2x50000x128, .f32⟩
  | .hbm, ⟨41, _⟩ => ⟨S_, .f32⟩
  | .hbm, ⟨42, _⟩ => ⟨S2x50000x128, .f32⟩
  | .hbm, ⟨43, _⟩ => ⟨S2x50000x128, .i1⟩
  | .hbm, ⟨44, _⟩ => ⟨S_, .f32⟩
  | .hbm, ⟨45, _⟩ => ⟨S2x50000x128, .f32⟩
  | .hbm, ⟨46, _⟩ => ⟨S2x50000x128, .f32⟩
  | .hbm, ⟨47, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000x128_S2x50000x128_1_2 : S50000x128.BroadcastsInDim S2x50000x128 (![1, 2] : Fin 2 → Fin S2x50000x128.rank)
  bcast_S_S2x50000x128 : S_.BroadcastsInDim S2x50000x128 (![] : Fin 0 → Fin S2x50000x128.rank)
  gather_S2x50000x128_S800000x1_S2x800000x128_02_1_n_n_1_1_21128_wf : GatherDims.WF S2x50000x128 S800000x1 S2x800000x128 [0, 2] [1] [] [1] [] 1 ![2, 1, 128]
  scatter_S2x50000x128_S800000x1_S2x800000x128_02_1_1_1_wf : ScatterDims.WF S2x50000x128 S800000x1 S2x800000x128 [0, 2] [1] [1] 1
  dot_S2x50000x128_S128x128_S2x50000x128_2_1_01_0_n_n_wf : DotDims.WF S2x50000x128 S128x128 S2x50000x128 [2] [1] [0, 1] [0] [] []

variable [Facts₀]

def gather_S2x50000x128_S800000x1_S2x800000x128_02_1_n_n_1_1_21128 : GatherDims S2x50000x128 S800000x1 S2x800000x128 where
  offsetDims := [0, 2]
  collapsedSliceDims := [1]
  operandBatchingDims := []
  startIndicesBatchingDims := []
  startIndexMap := [1]
  indexVectorDim := 1
  sliceSizes := ![2, 1, 128]
  wf := gather_S2x50000x128_S800000x1_S2x800000x128_02_1_n_n_1_1_21128_wf
def scatter_S2x50000x128_S800000x1_S2x800000x128_02_1_1_1 : ScatterDims S2x50000x128 S800000x1 S2x800000x128 where
  updateWindowDims := [0, 2]
  insertedWindowDims := [1]
  scatterDimsToOperandDims := [1]
  indexVectorDim := 1
  wf := scatter_S2x50000x128_S800000x1_S2x800000x128_02_1_1_1_wf
def dot_S2x50000x128_S128x128_S2x50000x128_2_1_01_0_n_n : DotDims S2x50000x128 S128x128 S2x50000x128 where
  lhsContracting := [2]
  rhsContracting := [1]
  lhsNonContracting := [0, 1]
  rhsNonContracting := [0]
  lhsBatch := []
  rhsBatch := []
  wf := dot_S2x50000x128_S128x128_S2x50000x128_2_1_01_0_n_n_wf

class Facts : Prop extends Facts₀ where

variable [Facts]
-- ==== Proof.Spec.lean ====
/-
  The mathematics both programs compute, stated once over plain index functions.

  A node row `r` of the stacked array [100000, 128] is node `n` of batch `b` with `r = b * 50000 + n`.
  With `nb` the neighbour sums, `nd` / `ed` the node and edge feature embeddings and `w` the weight matrix,
  every output entry is

      leaky (nd + (sum over k of nb[row, k] * w[e, k]) + ed),

  where `leaky s` is `s` when `s >= 0` and `c * s` otherwise, `c` the single-precision word nearest 0.01
  (the same word in both programs, so it is never evaluated).  Stated on the stacked rows (`rowsOut`) and on
  the batched array (`batOut`); `batOut_of_rows` says that stacking the three inputs, applying `rowsOut` and
  unstacking the result is `batOut`: only a renaming of indices, no law of arithmetic.
-/
import Idealize.ShloMosaic.PureOps.Ideal
import Idealize.ShloMosaic.PureOps.Ideal.Laws
import Idealize.ShloMosaic.Lib.ValueIdx
import Idealize.ShloMosaic.Lib.Pipeline.Value

noncomputable section

namespace Cert.Combine

open Idealize.ShloMosaic Idealize.ShloMosaic.ValueIdx

/-- The node rows of both batches, stacked. -/
abbrev Rows : Shape := ⟨2, ![100000, 128]⟩
/-- The batched node array. -/
abbrev Bat : Shape := ⟨3, ![2, 50000, 128]⟩
/-- The weight matrix. -/
abbrev Wt : Shape := ⟨2, ![128, 128]⟩

/-- The leaky rectifier on the extended reals: `s` where `s ≥ 0`, the slope word times `s` elsewhere. -/
def leaky (s : EReal) : EReal :=
  Scalar.select (Ideal.cmp .oge s (Ideal.ofBits .f32 0x00000000#32)) s (Ideal.ofBits .f32 0x3C23D70A#32 * s)

/-- The result on stacked rows: entry (r, e) from row r of the three inputs and row e of the weights. -/
def rowsOut (nb nd ed : Rows.Idx → EReal) (w : Wt.Idx → EReal) : Rows.Idx → EReal := fun j =>
  leaky (nd j + (∑ k : Fin 128, nb (ix2 (n0 := 100000) (n1 := 128) (j 0) k) * w (ix2 (n0 := 128) (n1 := 128) (j 1) k)) + ed j)

/-- The result on the batched array: entry (b, n, e) from node (b, n) of the three inputs and row e of the weights. -/
def batOut (nb nd ed : Bat.Idx → EReal) (w : Wt.Idx → EReal) : Bat.Idx → EReal := fun i =>
  leaky (nd i + (∑ k : Fin 128, nb (ix3 (n0 := 2) (n1 := 50000) (n2 := 128) (i 0) (i 1) k) * w (ix2 (n0 := 128) (n1 := 128) (i 2) k)) + ed i)

/-- Stacking: row `b * 50000 + n` of the stacked array is node `(b, n)`. -/
theorem stack_apply {α : Type} (x : Bat.Idx → α) (h : Bat.ShapeCasts Rows) (b : Fin 2) (n : Fin 50000) (e : Fin 128)
    (r : Fin 100000) (hr : r.val = b.val * 50000 + n.val) :
    shapeCast Rows x h (ix2 r e) = x (ix3 b n e) :=
  shapeCast_apply x h (ix2 r e) (ix3 b n e) (by
    rw [Shape.rowMajor_val_three, Shape.rowMajor_val_two]
    show (b.val * 50000 + n.val) * 128 + e.val = r.val * 128 + e.val
    rw [hr])

/-- Unstacking: node `(b, n)` of the batched array is row `b * 50000 + n`. -/
theorem unstack_apply {α : Type} (y : Rows.Idx → α) (h : Rows.ShapeCasts Bat) (b : Fin 2) (n : Fin 50000) (e : Fin 128)
    (r : Fin 100000) (hr : r.val = b.val * 50000 + n.val) :
    shapeCast Bat y h (ix3 b n e) = y (ix2 r e) :=
  shapeCast_apply y h (ix3 b n e) (ix2 r e) (by
    rw [Shape.rowMajor_val_three, Shape.rowMajor_val_two]
    show r.val * 128 + e.val = (b.val * 50000 + n.val) * 128 + e.val
    rw [hr])

/-- Stack the inputs, compute on rows, unstack: the batched result. -/
theorem batOut_of_rows (nb nd ed : Bat.Idx → EReal) (w : Wt.Idx → EReal) (h : Bat.ShapeCasts Rows) (h' : Rows.ShapeCasts Bat) :
    shapeCast Bat (rowsOut (shapeCast Rows nb h) (shapeCast Rows nd h) (shapeCast Rows ed h) w) h' = batOut nb nd ed w := by
  funext i
  obtain ⟨b, n, e, rfl⟩ : ∃ (b : Fin 2) (n : Fin 50000) (e : Fin 128), i = ix3 b n e := ⟨i 0, i 1, i 2, eq_ix3 i⟩
  have hlt : b.val * 50000 + n.val < 100000 := by have := b.isLt; have := n.isLt; omega
  rw [unstack_apply _ h' b n e ⟨b.val * 50000 + n.val, hlt⟩ rfl]
  show leaky (shapeCast Rows nd h (ix2 ⟨b.val * 50000 + n.val, hlt⟩ e)
      + (∑ k : Fin 128, shapeCast Rows nb h (ix2 ⟨b.val * 50000 + n.val, hlt⟩ k) * w (ix2 e k))
      + shapeCast Rows ed h (ix2 ⟨b.val * 50000 + n.val, hlt⟩ e))
    = leaky (nd (ix3 b n e) + (∑ k : Fin 128, nb (ix3 b n k) * w (ix2 e k)) + ed (ix3 b n e))
  rw [stack_apply nd h b n e _ rfl, stack_apply ed h b n e _ rfl]
  congr 3
  exact Finset.sum_congr rfl fun k _ => by rw [stack_apply nb h b n k _ rfl]

end Cert.Combine

end
-- ==== Proof.Payload.lean ====
/-
  One tile of the kernel, entry by entry.

  At a grid point the body loads a tile of 5000 stacked rows of the neighbour sums (`x0`), of the node and
  edge embeddings (`x1`, `x2`) and the whole weight matrix (`x3`), and stores one tile.  Over the extended
  reals the narrowing of the two matmul operands is the identity and the matrix unit, started from a zero
  accumulator, leaves the plain sum over the contracted axis; so entry (p, q) of the stored tile is

      leaky (x1[p, q] + (sum over k of x0[p, k] * x3[q, k]) + x2[p, q]).
-/
import proofs.«178994_j29008209117742_1_alg».proof.Proof.Gen.KernelIdeal.Skeleton
import proofs.«178994_j29008209117742_1_alg».proof.Proof.Spec
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx Cert.Combine

/-- The matrix product of a tile with the weights, both contracted along their second axis, into a zero
    accumulator: entry (p, q) is the sum over k of l[p, k] * r[q, k]. -/
theorem matmul_entry (l : FVec Ideal S5000x128 .bf16) (r : FVec Ideal S128x128 .bf16) (p : Fin 5000) (q : Fin 128) :
    matmul dot_S5000x128_S128x128_S5000x128_1_1_0_0_n_n none l r (constant (F := Ideal) S5000x128 .f32 0x00000000#32) (ix2 p q)
      = ∑ k : Fin 128, l (ix2 p k) * r (ix2 q k) := by
  simp only [matmul]
  rw [Ideal.matmul_constant_zero_apply,
    ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q)
      ((contrEquiv1 dot_S5000x128_S128x128_S5000x128_1_1_0_0_n_n 128 rfl rfl).symm k) = ix2 p k :=
    funext fun a => Fin.ext (by
      match a with
      | ⟨0, _⟩ =>
        show (dot_S5000x128_S128x128_S5000x128_1_1_0_0_n_n.lhsIdx (ix2 p q) _ 0).val = p.val
        unfold DotDims.lhsIdx
        rw [dif_neg (show ¬(0 : Fin S5000x128.rank) ∈ dot_S5000x128_S128x128_S5000x128_1_1_0_0_n_n.lhsBatch by decide),
          dif_pos (show (0 : Fin S5000x128.rank) ∈ dot_S5000x128_S128x128_S5000x128_1_1_0_0_n_n.lhsNonContracting by decide)]
        rfl
      | ⟨1, _⟩ => exact (dot_S5000x128_S128x128_S5000x128_1_1_0_0_n_n.lhsIdx_val_of_single rfl _ _).trans hk)
  have er : dot_S5000x128_S128x128_S5000x128_1_1_0_0_n_n.rhsIdx (ix2 p q)
      ((contrEquiv1 dot_S5000x128_S128x128_S5000x128_1_1_0_0_n_n 128 rfl rfl).symm k) = ix2 q k :=
    funext fun a => Fin.ext (by
      match a with
      | ⟨0, _⟩ =>
        show (dot_S5000x128_S128x128_S5000x128_1_1_0_0_n_n.rhsIdx (ix2 p q) _ 0).val = q.val
        unfold DotDims.rhsIdx
        rw [dif_neg (show ¬(0 : Fin S128x128.rank) ∈ dot_S5000x128_S128x128_S5000x128_1_1_0_0_n_n.rhsBatch by decide),
          dif_pos (show (0 : Fin S128x128.rank) ∈ dot_S5000x128_S128x128_S5000x128_1_1_0_0_n_n.rhsNonContracting by decide)]
        rfl
      | ⟨1, _⟩ => exact (dot_S5000x128_S128x128_S5000x128_1_1_0_0_n_n.rhsIdx_val_of_single rfl _ _).trans hk)
  rw [el, er]

/-- The stored tile at entry (p, q). -/
theorem payload_entry (x0 : Vec Ideal S5000x128 .f32) (x3 : Vec Ideal S128x128 .f32) (x1 x2 : Vec Ideal S5000x128 .f32)
    (p : Fin 5000) (q : Fin 128) :
    k0_pay1 (F := Ideal) x0 x3 x1 x2 (ix2 p q)
      = leaky (x1 (ix2 p q) + (∑ k : Fin 128, x0 (ix2 p k) * x3 (ix2 q k)) + x2 (ix2 p q)) := by
  unfold k0_pay1
  simp only [shapeCast_self]
  rw [select_apply, cmpf_apply, addf_apply, addf_apply, mulf_apply, addf_apply, addf_apply, broadcast_apply, broadcast_apply,
    matmul_entry]
  rfl

end Cert.KernelIdeal.Tile

end
-- ==== Proof.Tiles.lean ====
import proofs.«178994_j29008209117742_1_alg».proof.Proof.Gen.KernelIdeal.Frame
import proofs.«178994_j29008209117742_1_alg».proof.Proof.Payload

noncomputable section

namespace Cert.KernelIdeal.Tile

open Cert.KernelIdeal Cert.KernelIdeal.Gen Idealize.ShloMosaic Idealize.ShloMosaic.TcCoe Idealize.SL.Sem
open Idealize.ShloMosaic.ValueIdx Cert.Combine
open Idealize.ShloMosaic.Pipeline (Dat)

variable (m : (ℓ : Loc nD τ sig) → Buf (Elt Ideal) ℓ)

theorem zero_off : (![0, 0] : Fin 2 → Nat) = fun _ => 0 := funext fun a => by fin_cases a <;> rfl

/-- Where each window's block sits at each of the 20 points (decided over the grid). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Where a tile's entry sits in its array: row p of point t's tile is stacked row 5000 t + p -/

theorem rows_emb0 (t : Fin cfg0.N) (p : Fin 5000) (k : Fin 128) (r : Fin 100000) (hr : r.val = 5000 * t.val + p.val) :
    ((cfg0.win 0).blk t).view.emb (ix2 p k) = (ix2 r k : Rows.Idx) := by
  obtain ⟨e0, e1, -⟩ := block_index t
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

theorem rows_emb1 (t : Fin cfg0.N) (p : Fin 5000) (k : Fin 128) (r : Fin 100000) (hr : r.val = 5000 * t.val + p.val) :
    ((cfg0.win 1).blk t).view.emb (ix2 p k) = (ix2 r k : Rows.Idx) := by
  obtain ⟨-, -, e0, e1, -⟩ := block_index t
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

theorem rows_emb2 (t : Fin cfg0.N) (p : Fin 5000) (k : Fin 128) (r : Fin 100000) (hr : r.val = 5000 * t.val + p.val) :
    ((cfg0.win 2).blk t).view.emb (ix2 p k) = (ix2 r k : Rows.Idx) := by
  obtain ⟨-, -, -, -, e0, e1, -⟩ := block_index t
  funext a
  apply Fin.ext
  match a with
  | ⟨0, _⟩ => show win0_2.index t 0 * 5000 + 1 * p.val = r.val; rw [e0, hr]; omega
  | ⟨1, _⟩ => show win0_2.index t 1 * 128 + 1 * k.val = k.val; rw [e1]; omega

theorem weights_emb (t : Fin cfg0.N) (q : Fin 128) (k : Fin 128) :
    ((cfg0.win 3).blk t).view.emb (ix2 q k) = (ix2 q k : Wt.Idx) := by
  obtain ⟨-, -, -, -, -, -, e0, e1, -⟩ := block_index t
  funext a
  apply Fin.ext
  match a with
  | ⟨0, _⟩ => show win0_3.index t 0 * 128 + 1 * q.val = q.val; rw [e0]; omega
  | ⟨1, _⟩ => show win0_3.index t 1 * 128 + 1 * k.val = k.val; rw [e1]; omega

theorem rows_emb4 (t : Fin cfg0.N) (p : Fin 5000) (k : Fin 128) (r : Fin 100000) (hr : r.val = 5000 * t.val + p.val) :
    ((cfg0.win 4).blk t).view.emb (ix2 p k) = (ix2 r k : Rows.Idx) := by
  obtain ⟨-, -, -, -, -, -, -, -, e0, e1⟩ := block_index t
  funext a
  apply Fin.ext
  match a with
  | ⟨0, _⟩ => show win0_4.index t 0 * 5000 + 1 * p.val = r.val; rw [e0, hr]; omega
  | ⟨1, _⟩ => show win0_4.index t 1 * 128 + 1 * k.val = k.val; rw [e1]; omega

/-! ## A tile read out of ANY array, entry by entry -/

theorem read_rows0 (A : Rows.Idx → EReal) (t : Fin cfg0.N) (p : Fin 5000) (k : Fin 128) (r : Fin 100000) (hr : r.val = 5000 * t.val + p.val) :
    (((cfg0.win 0).blk t).view.read (Elt Ideal) A : Vec Ideal S5000x128 .f32) (ix2 p k) = A (ix2 r k) := by
  rw [View.read_apply, rows_emb0 t p k r hr]
  rfl

theorem read_rows1 (A : Rows.Idx → EReal) (t : Fin cfg0.N) (p : Fin 5000) (k : Fin 128) (r : Fin 100000) (hr : r.val = 5000 * t.val + p.val) :
    (((cfg0.win 1).blk t).view.read (Elt Ideal) A : Vec Ideal S5000x128 .f32) (ix2 p k) = A (ix2 r k) := by
  rw [View.read_apply, rows_emb1 t p k r hr]
  rfl

theorem read_rows2 (A : Rows.Idx → EReal) (t : Fin cfg0.N) (p : Fin 5000) (k : Fin 128) (r : Fin 100000) (hr : r.val = 5000 * t.val + p.val) :
    (((cfg0.win 2).blk t).view.read (Elt Ideal) A : Vec Ideal S5000x128 .f32) (ix2 p k) = A (ix2 r k) := by
  rw [View.read_apply, rows_emb2 t p k r hr]
  rfl

theorem read_weights (A : Wt.Idx → EReal) (t : Fin cfg0.N) (q : Fin 128) (k : Fin 128) :
    (((cfg0.win 3).blk t).view.read (Elt Ideal) A : Vec Ideal S128x128 .f32) (ix2 q k) = A (ix2 q k) := by
  rw [View.read_apply, weights_emb t q k]
  rfl

theorem read_rows4 (A : Rows.Idx → EReal) (t : Fin cfg0.N) (p : Fin 5000) (k : Fin 128) (r : Fin 100000) (hr : r.val = 5000 * t.val + p.val) :
    (((cfg0.win 4).blk t).view.read (Elt Ideal) A : Vec Ideal S5000x128 .f32) (ix2 p k) = A (ix2 r k) := by
  rw [View.read_apply, rows_emb4 t p k r hr]
  rfl

/-! ## What a point leaves in the output tile, for ANY four arrays -/

/-- `rowsOut` at an entry given by its coordinates. -/
theorem rowsOut_apply (nb nd ed : Rows.Idx → EReal) (w : Wt.Idx → EReal) (r : Fin 100000) (e : Fin 128) :
    rowsOut nb nd ed w (ix2 r e) = leaky (nd (ix2 r e) + (∑ k : Fin 128, nb (ix2 r k) * w (ix2 e k)) + ed (ix2 r e)) := rfl

/-- The body's stored tile, computed from the four arrays' blocks at point t, is rows 5000 t … of `rowsOut` of the
    arrays, entry by entry. -/
theorem tile_of_rowsOut (A0 A1 A2 : Rows.Idx → EReal) (A3 : Wt.Idx → EReal) (t : Fin cfg0.N) (p : Fin 5000) (q : Fin 128) :
    out0_4 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) (ix2 p q)
      = (((cfg0.win 4).blk t).view.read (Elt Ideal) (rowsOut A0 A1 A2 A3) : Vec Ideal S5000x128 .f32) (ix2 p q) := by
  have ht : t.val < 20 := t.isLt
  have hlt : 5000 * t.val + p.val < 100000 := by have := p.isLt; omega
  unfold out0_4
  rw [View.canon_unit_zero zero_off]
  simp only [View.ld_unit_zero (S := S5000x128) zero_off, View.ld_unit_zero (S := S128x128) zero_off]
  rw [payload_entry]
  simp only [fun k => read_rows0 A0 t p k ⟨5000 * t.val + p.val, hlt⟩ rfl, fun k => read_weights A3 t q k]
  rw [read_rows1 A1 t p q ⟨5000 * t.val + p.val, hlt⟩ rfl, read_rows2 A2 t p q ⟨5000 * t.val + p.val, hlt⟩ rfl,
    read_rows4 (rowsOut A0 A1 A2 A3) t p q ⟨5000 * t.val + p.val, hlt⟩ rfl, rowsOut_apply]

/-- The same as an equation of blocks: what is written back is the output window's block of `rowsOut`. -/
theorem block_of_rowsOut (A0 A1 A2 : Rows.Idx → EReal) (A3 : Wt.Idx → EReal) (t : Fin cfg0.N) :
    (cfg0.win 4).cut (grid0.coords t)
        (out0_4 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (rowsOut A0 A1 A2 A3) := by
  funext j
  obtain ⟨p, q, rfl⟩ : ∃ (p : Fin 5000) (q : Fin 128), j = ix2 p q := ⟨j 0, j 1, eq_ix2 j⟩
  exact tile_of_rowsOut A0 A1 A2 A3 t p q

/-! ## The region's output array -/

/-- The stacked result the region computes, of the arrays as the region finds them. -/
abbrev stacked (c : Dev nD) : Rows.Idx → EReal :=
  rowsOut (V m c main_v27) (V m c main_v28) (V m c main_v29) (V m c main_arg4)

/-- WHAT POINT `t` WRITES BACK is rows 5000 t … of `stacked`. -/
theorem flushed_eq (c : Dev nD) (t : Fin cfg0.N) :
    (dats m 0 c).flushed 4 t = ((cfg0.win 4).blk t).view.read (Elt Ideal) (stacked m c) := by
  show (cfg0.win 4).cut (grid0.coords t) ((dats m 0 c).after 4 t) = _
  rw [after0_4]
  exact block_of_rowsOut (V m c main_v27) (V m c main_v28) (V m c main_v29) (V m c main_arg4) t

/-- Stacked row r lies in the block of point r / 5000. -/
theorem covered (i : Rows.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  have hq : (i 0).val / 5000 < cfg0.N := by rw [hN]; omega
  refine ⟨⟨(i 0).val / 5000, hq⟩, flush0_4 _, ?_⟩
  obtain ⟨-, -, -, -, -, -, -, -, e0, e1⟩ := block_index ⟨(i 0).val / 5000, hq⟩
  show i ∈ ((View.whole main_v30).slice (win0_4.rect ⟨(i 0).val / 5000, hq⟩)).set
  rw [View.set_slice_whole, Rect.mem_set_unit]
  intro a
  match a with
  | ⟨0, _⟩ =>
    show win0_4.index ⟨(i 0).val / 5000, hq⟩ (0 : Fin 2) * 5000 ≤ (i 0).val
      ∧ (i 0).val < win0_4.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, hq⟩ (1 : Fin 2) * 128 ≤ (i 1).val
      ∧ (i 1).val < win0_4.index ⟨(i 0).val / 5000, hq⟩ (1 : Fin 2) * 128 + 128
    rw [e1]
    omega

/-- THE OUTPUT ARRAY after the region: `rowsOut` of the four arrays the region finds. -/
theorem final (c : Dev nD) : (dats m 0 c).arrAt 4 cfg0.N = stacked m c :=
  (dats m 0 c).arrAt_eq_of_cover 4 (stacked m c) (fun t _ => flushed_eq m c t) covered

end Cert.KernelIdeal.Tile

end
-- ==== Proof.HostSide.lean ====
/-
  The host operations around the region, read as values.

  Before the region the node and edge embeddings are stacked ([2, 50000, 128] to [100000, 128]) and the weights
  are passed as they are; after it the one host operation unstacks the region's output array.
-/
import proofs.«178994_j29008209117742_1_alg».proof.Proof.Gen.KernelIdeal.Frame
import proofs.«178994_j29008209117742_1_alg».proof.Proof.Spec
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Cert.Combine
open Idealize.ShloMosaic.Pipeline (Dat)

variable (m : (ℓ : Loc nD τ sig) → Buf (Elt Ideal) ℓ)

/-- The region finds the node embeddings stacked. -/
theorem V_node (c : Dev nD) :
    (V m c main_v28 : Rows.Idx → EReal)
      = shapeCast Rows (m ((c : Thread nD τ).loc main_arg2) : Bat.Idx → EReal) Facts₀.shapeCasts_S2x50000x128_S100000x128 := by
  show StableHlo.after hostOps0 (fun b => m (c, b)) (Proc.devRef .tc main_v28) = _
  after_results_simp
  rfl

/-- The region finds the edge embeddings stacked. -/
theorem V_edge (c : Dev nD) :
    (V m c main_v29 : Rows.Idx → EReal)
      = shapeCast Rows (m ((c : Thread nD τ).loc main_arg3) : Bat.Idx → EReal) Facts₀.shapeCasts_S2x50000x128_S100000x128 := by
  show StableHlo.after hostOps0 (fun b => m (c, b)) (Proc.devRef .tc main_v29) = _
  after_results_simp
  rfl

/-- The program's result is the region's output array, unstacked. -/
theorem tail_result (c : Dev nD) :
    (Pipeline.afterTail₀ cfgs (dats m) 0 (V0 m) [hostOps1] c main_v31 : Bat.Idx → EReal)
      = shapeCast Bat ((dats m 0 c).arrAt 4 cfg0.N : Rows.Idx → EReal) Facts₀.shapeCasts_S100000x128_S2x50000x128 := by
  unfold Pipeline.afterTail₀
  show StableHlo.after hostOps1 _ (Proc.devRef .tc main_v31) = _
  after_results
  exact congrArg (fun y : Rows.Idx → EReal => shapeCast Bat y Facts₀.shapeCasts_S100000x128_S2x50000x128)
    (Pipeline.withArrays_arr spec0 launch0.win.arr_inj c _ _ 4)

end Cert.KernelIdeal.HostSide

end
-- ==== Proof.Neighbours.lean ====
/-
  The neighbour sums.

  Both programs begin with the same host operations on the node states and the edge list: for each edge
  direction, gather the states at one endpoint and add them into the rows of the other, then add the two
  directions.  The kernel's program then stacks the result for the region.  This module says only that: the
  array the region finds in its first window is the stacking of the reference's neighbour-sum stage applied to
  the kernel's first two arguments.  The gathers and scatters themselves are never opened.
-/
import proofs.«178994_j29008209117742_1_alg».proof.Proof.Gen.KernelIdeal.Frame
import proofs.«178994_j29008209117742_1_alg».proof.Proof.Gen.ReferenceIdeal.Read
import proofs.«178994_j29008209117742_1_alg».proof.Proof.Spec
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Cert.Combine

variable (m : (ℓ : Loc nD τ sig) → Buf (Elt Ideal) ℓ)

/-- The neighbour sums of the kernel's arguments, as the reference's stage computes them. -/
abbrev nbr (c : Dev nD) : Bat.Idx → EReal :=
  Cert.ReferenceIdeal.Read.val_main_v26 (F := Ideal) (m ((c : Thread nD τ).loc main_arg0)) (m ((c : Thread nD τ).loc main_arg1))

set_option maxHeartbeats 2000000 in
/-- The region finds the neighbour sums stacked. -/
theorem V_nbr (c : Dev nD) :
    (V m c main_v27 : Rows.Idx → EReal) = shapeCast Rows (nbr m c) Facts₀.shapeCasts_S2x50000x128_S100000x128 := by
  show StableHlo.after hostOps0 (fun b => m (c, b)) (Proc.devRef .tc main_v27) = _
  after_results_simp
  rfl

end Cert.KernelIdeal.HostSide

end
-- ==== Proof.Whole.lean ====
/-
  The kernel's program from end to end.

  Stacked inputs go in (`HostSide`, `Neighbours`), the region leaves `rowsOut` of them (`Tiles`), the tail
  unstacks it; by `batOut_of_rows` the program's result is `batOut` of the neighbour sums and the three other
  arguments.  The run below names that result and says the five arguments end as they began.
-/
import proofs.«178994_j29008209117742_1_alg».proof.Proof.Tiles
import proofs.«178994_j29008209117742_1_alg».proof.Proof.HostSide
import proofs.«178994_j29008209117742_1_alg».proof.Proof.Neighbours

noncomputable section

namespace Cert.KernelIdeal.Whole

open Cert.KernelIdeal Cert.KernelIdeal.Gen Idealize.ShloMosaic Idealize.ShloMosaic.TcCoe Idealize.SL.Sem
open Cert.Combine Cert.KernelIdeal.HostSide
open Idealize.ShloMosaic.Pipeline (Dat)

variable (m : (ℓ : Loc nD τ sig) → Buf (Elt Ideal) ℓ) (ρ : Dev nD → PrngReg)

/-- Unstacking `rowsOut` of arrays that are stackings is `batOut`. -/
theorem unstack_rowsOut (A0 A1 A2 : Rows.Idx → EReal) (A3 : Wt.Idx → EReal) (nb nd ed : Bat.Idx → EReal) (w : Wt.Idx → EReal)
    (h : Bat.ShapeCasts Rows) (h' : Rows.ShapeCasts Bat)
    (e0 : A0 = shapeCast Rows nb h) (e1 : A1 = shapeCast Rows nd h) (e2 : A2 = shapeCast Rows ed h) (e3 : A3 = w) :
    shapeCast Bat (rowsOut A0 A1 A2 A3) h' = batOut nb nd ed w := by
  subst e0 e1 e2 e3
  exact batOut_of_rows nb nd ed A3 h h'

/-- What the program returns. -/
abbrev result (c : Dev nD) : Bat.Idx → EReal :=
  batOut (nbr m c) (m ((c : Thread nD τ).loc main_arg2)) (m ((c : Thread nD τ).loc main_arg3)) (m ((c : Thread nD τ).loc main_arg4))

/-- The buffer the tail writes holds `result`. -/
theorem tail_eq (c : Dev nD) :
    (Pipeline.afterTail₀ cfgs (dats m) 0 (V0 m) [hostOps1] c main_v31 : Bat.Idx → EReal) = result m c :=
  (tail_result m c).trans
    ((congrArg (fun y : Rows.Idx → EReal => shapeCast Bat y Facts₀.shapeCasts_S100000x128_S2x50000x128) (Tile.final m c)).trans
      (unstack_rowsOut _ _ _ _ _ _ _ _ _ _ (V_nbr m c) (V_node m c) (V_edge m c) (V_main_arg4 m c)))

/-- Every weakly fair execution of the kernel's program ends with its result buffer at `result` and its five
    arguments unchanged. -/
theorem run : θ_run defs (onTc (τ := τ) (main (F := Ideal))) ⟨m, fun _ => 0, ρ⟩ fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v31 (Pipeline.mem_restRefs_of main_v31 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.KernelIdeal.Whole

end
-- ==== Proof.RefValue.lean ====
/-
  The reference, entry by entry.

  After the neighbour sums the reference contracts them with the weights along the feature axis (entry (b, n, e)
  is the sum over k of nbr[b, n, k] * w[e, k]), adds the node and then the edge embeddings, and applies the leaky
  rectifier by comparing with zero and selecting between the sum and the slope word times the sum: `batOut`.
-/
import proofs.«178994_j29008209117742_1_alg».proof.Proof.Gen.ReferenceIdeal.Read
import proofs.«178994_j29008209117742_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Combine

/-- `batOut` at an entry given by its coordinates. -/
theorem batOut_apply (nb nd ed : Bat.Idx → EReal) (w : Wt.Idx → EReal) (b : Fin 2) (n : Fin 50000) (e : Fin 128) :
    batOut nb nd ed w (ix3 b n e)
      = leaky (nd (ix3 b n e) + (∑ k : Fin 128, nb (ix3 b n k) * w (ix2 e k)) + ed (ix3 b n e)) := rfl

/-- The reference's result stage is `batOut` of its neighbour-sum stage and the other three arguments. -/
theorem result_eq (x0 : (⟨S2x50000x128, .f32⟩ : BufTy).Contents (Elt Ideal)) (x1 : (⟨S800000x2, .i32⟩ : BufTy).Contents (Elt Ideal))
    (x2 x3 : (⟨S2x50000x128, .f32⟩ : BufTy).Contents (Elt Ideal)) (x4 : (⟨S128x128, .f32⟩ : BufTy).Contents (Elt Ideal)) :
    val_main_v34 (F := Ideal) x0 x1 x2 x3 x4 = batOut (val_main_v26 (F := Ideal) x0 x1) x2 x3 x4 := by
  funext i
  obtain ⟨b, n, e, rfl⟩ : ∃ (b : Fin 2) (n : Fin 50000) (e : Fin 128), i = ix3 b n e := ⟨i 0, i 1, i 2, eq_ix3 i⟩
  have el : ∀ k : Fin 128, lidx_main_v27 (ix3 b n e) k = ix3 b n k := fun k => funext fun a => Fin.ext (by
    match a with
    | ⟨0, _⟩ => rfl
    | ⟨1, _⟩ => rfl
    | ⟨2, _⟩ => rfl)
  have er : ∀ k : Fin 128, ridx_main_v27 (ix3 b n e) k = ix2 e k := fun k => funext fun a => Fin.ext (by
    match a with
    | ⟨0, _⟩ => rfl
    | ⟨1, _⟩ => rfl)
  rw [val_main_v34_apply, val_main_v31_apply, val_main_v33_apply, val_main_v29_apply, val_main_v28_apply, val_main_v27_apply,
    val_main_v30_apply, val_main_v32_apply, val_main_cst_4_apply, val_main_cst_5_apply, batOut_apply]
  simp only [el, er]
  rfl

end Cert.ReferenceIdeal.RefValue

end
-- ==== Proof.lean ====
/-
  The certificate: the Pallas kernel's program and the jnp reference compute, over the extended reals, the same
  array from the same five arguments.

  Both first form the neighbour sums of the node states along the edge list, by the same host operations.  The
  reference then contracts them with the weight matrix along the feature axis, adds the node and the edge
  embeddings, and applies the leaky rectifier.  The kernel's program stacks the two batches' rows, computes the
  same entries tile by tile (5000 rows at a point, 20 points; the narrowing of the matmul operands is the identity
  on the extended reals, and the matrix unit started from zero leaves the plain sum), and unstacks.  The two
  results are one function, `Cert.Combine.batOut`, of the neighbour sums and the other three arguments: only
  indices are renamed between them, and no law of arithmetic that needs finite values is used, so the
  precondition is never opened.

  The three frames are the generated ones (the reference's from its generated run); the idealization rewrote
  nothing, so `preserves` is trivial.
-/
import proofs.«178994_j29008209117742_1_alg».proof.Defs
import proofs.«178994_j29008209117742_1_alg».proof.Proof.Gen.Kernel
import proofs.«178994_j29008209117742_1_alg».proof.Proof.Gen.Kernel.Skeleton
import proofs.«178994_j29008209117742_1_alg».proof.Proof.Gen.Kernel.Launch
import proofs.«178994_j29008209117742_1_alg».proof.Proof.Gen.Kernel.Points
import proofs.«178994_j29008209117742_1_alg».proof.Proof.Gen.Kernel.Frame
import proofs.«178994_j29008209117742_1_alg».proof.Proof.Gen.KernelIdeal
import proofs.«178994_j29008209117742_1_alg».proof.Proof.Gen.KernelIdeal.Skeleton
import proofs.«178994_j29008209117742_1_alg».proof.Proof.Gen.KernelIdeal.Launch
import proofs.«178994_j29008209117742_1_alg».proof.Proof.Gen.KernelIdeal.Points
import proofs.«178994_j29008209117742_1_alg».proof.Proof.Gen.KernelIdeal.Frame
import proofs.«178994_j29008209117742_1_alg».proof.Proof.Gen.ReferenceIdeal
import proofs.«178994_j29008209117742_1_alg».proof.Proof.Gen.Pre_finite_inputs
import proofs.«178994_j29008209117742_1_alg».proof.Proof.Gen.ReferenceIdeal.Run
import proofs.«178994_j29008209117742_1_alg».proof.Proof.Gen.ReferenceIdeal.Read
import proofs.«178994_j29008209117742_1_alg».proof.Proof.Whole
import proofs.«178994_j29008209117742_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories that agree on the arguments both programs end with `batOut` of the neighbour sums, the node
    and edge embeddings and the weights. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v34_eq, Cert.ReferenceIdeal.RefValue.result_eq, h0, h1, h2, h3, h4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
